-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x85 : Shape := ⟨2, ![128, 85]⟩
abbrev S85 : Shape := ⟨1, ![85]⟩
abbrev S128x86 : Shape := ⟨2, ![128, 86]⟩
abbrev S86 : Shape := ⟨1, ![86]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x85 : S_.BroadcastsInDim S128x85 (![] : Fin 0 → Fin S128x85.rank)
  reducesTo_S128x85_S_d0_1 : S128x85.ReducesTo [0, 1] S_
  bcast_S_S85 : S_.BroadcastsInDim S85 (![] : Fin 0 → Fin S85.rank)
  reducesTo_S85_S_d0 : S85.ReducesTo [0] S_
  bcast_S_S128x86 : S_.BroadcastsInDim S128x86 (![] : Fin 0 → Fin S128x86.rank)
  reducesTo_S128x86_S_d0_1 : S128x86.ReducesTo [0, 1] S_
  bcast_S_S86 : S_.BroadcastsInDim S86 (![] : Fin 0 → Fin S86.rank)
  reducesTo_S86_S_d0 : S86.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S256x40 .f32) (main_arg9 : FVec F S40 .f32) (main_v33 : IVec S_ 1) : IVec S_ 1 :=
  let main_v34 : FVec F S256x40 .f32 := Host.absf main_arg8
  let main_cst_12 : FVec F S_ .f32 := constant S_ .f32 0x7F800000#32
  let main_v35 : FVec F S256x40 .f32 := broadcastInDim S256x40 ![] bcast_S_S256x40 main_cst_12
  let main_v36 : IVec S256x40 1 := cmpf .olt main_v34 main_v35
  let main_c_13 : IVec S_ 1 := constantI S_ 1 1#1
  let main_v37 : IVec S_ 1 := (fun x v => Host.reduce IntOp.andi x v reducesTo_S256x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S85 .f32) (main_arg6 : FVec F S128x86 .f32) (main_arg7 : FVec F S86 .f32) (main_arg8 : FVec F S256x40 .f32) (main_arg9 : FVec F S40 .f32) (main_v13 : IVec S_ 1) (main_v16 : IVec S128x85 1) : IVec S_ 1 :=
  let main_c_5 : IVec S_ 1 := constantI S_ 1 1#1
  let main_v17 : IVec S_ 1 := (fun x v => Host.reduce IntOp.andi x v reducesTo_S128x85_S_d0_1 h_S_) main_v16 main_c_5
  let main_v18 : IVec S_ 1 := andi main_v13 main_v17
  let main_v19 : FVec F S85 .f32 := Host.absf main_arg5
  let main_cst_6 : FVec F S_ .f32 := constant S_ .f32 0x7F800000#32
  let main_v20 : FVec F S85 .f32 := broadcastInDim S85 ![] bcast_S_S85 main_cst_6
  let main_v21 : IVec S85 1 := cmpf .olt main_v19 main_v20
  let main_c_7 : IVec S_ 1 := constantI S_ 1 1#1
  let main_v22 : IVec S_ 1 := (fun x v => Host.reduce IntOp.andi x v reducesTo_S85_S_d0 h_S_) main_v21 main_c_7
  let main_v23 : IVec S_ 1 := andi main_v18 main_v22
  let main_v24 : FVec F S128x86 .f32 := Host.absf main_arg6
  let main_cst_8 : FVec F S_ .f32 := constant S_ .f32 0x7F800000#32
  let main_v25 : FVec F S128x86 .f32 := broadcastInDim S128x86 ![] bcast_S_S128x86 main_cst_8
  let main_v26 : IVec S128x86 1 := cmpf .olt main_v24 main_v25
  let main_c_9 : IVec S_ 1 := constantI S_ 1 1#1
  let main_v27 : IVec S_ 1 := (fun x v => Host.reduce IntOp.andi x v reducesTo_S128x86_S_d0_1 h_S_) main_v26 main_c_9
  let main_v28 : IVec S_ 1 := andi main_v23 main_v27
  let main_v29 : FVec F S86 .f32 := Host.absf main_arg7
  let main_cst_10 : FVec F S_ .f32 := constant S_ .f32 0x7F800000#32
  let main_v30 : FVec F S86 .f32 := broadcastInDim S86 ![] bcast_S_S86 main_cst_10
  let main_v31 : IVec S86 1 := cmpf .olt main_v29 main_v30
  let main_c_11 : IVec S_ 1 := constantI S_ 1 1#1
  let main_v32 : IVec S_ 1 := (fun x v => Host.reduce IntOp.andi x v reducesTo_S86_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x85 .f32) (main_arg3 : FVec F S85 .f32) (main_arg4 : FVec F S128x85 .f32) (main_arg5 : FVec F S85 .f32) (main_arg6 : FVec F S128x86 .f32) (main_arg7 : FVec F S86 .f32) (main_arg8 : FVec F S256x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x85 .f32 := Host.absf main_arg2
  let main_cst_0 : FVec F S_ .f32 := constant S_ .f32 0x7F800000#32
  let main_v5 : FVec F S128x85 .f32 := broadcastInDim S128x85 ![] bcast_S_S128x85 main_cst_0
  let main_v6 : IVec S128x85 1 := cmpf .olt main_v4 main_v5
  let main_c_1 : IVec S_ 1 := constantI S_ 1 1#1
  let main_v7 : IVec S_ 1 := (fun x v => Host.reduce IntOp.andi x v reducesTo_S128x85_S_d0_1 h_S_) main_v6 main_c_1
  let main_v8 : IVec S_ 1 := andi main_v3 main_v7
  let main_v9 : FVec F S85 .f32 := Host.absf main_arg3
  let main_cst_2 : FVec F S_ .f32 := constant S_ .f32 0x7F800000#32
  let main_v10 : FVec F S85 .f32 := broadcastInDim S85 ![] bcast_S_S85 main_cst_2
  let main_v11 : IVec S85 1 := cmpf .olt main_v9 main_v10
  let main_c_3 : IVec S_ 1 := constantI S_ 1 1#1
  let main_v12 : IVec S_ 1 := (fun x v => Host.reduce IntOp.andi x v reducesTo_S85_S_d0 h_S_) main_v11 main_c_3
  let main_v13 : IVec S_ 1 := andi main_v8 main_v12
  let main_v14 : FVec F S128x85 .f32 := Host.absf main_arg4
  let main_cst_4 : FVec F S_ .f32 := constant S_ .f32 0x7F800000#32
  let main_v15 : FVec F S128x85 .f32 := broadcastInDim S128x85 ![] bcast_S_S128x85 main_cst_4
  let main_v16 : IVec S128x85 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x85 : Shape := ⟨2, ![128, 85]⟩
abbrev S85 : Shape := ⟨1, ![85]⟩
abbrev S128x86 : Shape := ⟨2, ![128, 86]⟩
abbrev S86 : Shape := ⟨1, ![86]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x85 : Shape := ⟨2, ![1, 85]⟩
abbrev S1x86 : Shape := ⟨2, ![1, 86]⟩
abbrev S1x40 : Shape := ⟨2, ![1, 40]⟩
abbrev S50000x40 : Shape := ⟨2, ![50000, 40]⟩
abbrev S5000x128 : Shape := ⟨2, ![5000, 128]⟩
abbrev S5000x1 : Shape := ⟨2, ![5000, 1]⟩
abbrev S5000x40 : Shape := ⟨2, ![5000, 40]⟩
abbrev S5000x85 : Shape := ⟨2, ![5000, 85]⟩
abbrev S5000x86 : Shape := ⟨2, ![5000, 86]⟩
abbrev S5000x256 : Shape := ⟨2, ![5000, 256]⟩

abbrev nBuf : Space → Nat
  | .hbm => 58
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x85, .f32⟩
  | .hbm, ⟨3, _⟩ => ⟨S85, .f32⟩
  | .hbm, ⟨4, _⟩ => ⟨S128x85, .f32⟩
  | .hbm, ⟨5, _⟩ => ⟨S85, .f32⟩
  | .hbm, ⟨6, _⟩ => ⟨S128x86, .f32⟩
  | .hbm, ⟨7, _⟩ => ⟨S86, .f32⟩
  | .hbm, ⟨8, _⟩ => ⟨S256x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S1x85, .f32⟩
  | .hbm, ⟨54, _⟩ => ⟨S1x85, .f32⟩
  | .hbm, ⟨55, _⟩ => ⟨S1x86, .f32⟩
  | .hbm, ⟨56, _⟩ => ⟨S1x40, .f32⟩
  | .hbm, ⟨57, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x1, .f32⟩
  | .local _ .vmem, ⟨7, _⟩ => ⟨S5000x1, .f32⟩
  | .local _ .vmem, ⟨8, _⟩ => ⟨S128x85, .f32⟩
  | .local _ .vmem, ⟨9, _⟩ => ⟨S1x85, .f32⟩
  | .local _ .vmem, ⟨10, _⟩ => ⟨S128x85, .f32⟩
  | .local _ .vmem, ⟨11, _⟩ => ⟨S1x85, .f32⟩
  | .local _ .vmem, ⟨12, _⟩ => ⟨S128x86, .f32⟩
  | .local _ .vmem, ⟨13, _⟩ => ⟨S1x86, .f32⟩
  | .local _ .vmem, ⟨14, _⟩ => ⟨S256x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x85 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x85 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x85 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x85 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x86 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x86 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x40 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S5000x40 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S50000_S50000x1 : S50000.ShapeCasts S50000x1
  shapeCasts_S85_S1x85 : S85.ShapeCasts S1x85
  shapeCasts_S86_S1x86 : S86.ShapeCasts S1x86
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x85_S128x85_0_0 : ∀ a, (![0, 0] : Fin 2 → Nat) a + S128x85.size a ≤ S128x85.size a
  h_S128x85 : 0 < S128x85.numel
  inb_S1x85_S1x85_0_0 : ∀ a, (![0, 0] : Fin 2 → Nat) a + S1x85.size a ≤ S1x85.size a
  h_S1x85 : 0 < S1x85.numel
  shapeCasts_S1x85_S1x85 : S1x85.ShapeCasts S1x85
  broadcasts_S1x85_S5000x85 : S1x85.Broadcasts S5000x85
  broadcasts_S5000x1_S5000x128 : S5000x1.Broadcasts S5000x128
  inb_S128x86_S128x86_0_0 : ∀ a, (![0, 0] : Fin 2 → Nat) a + S128x86.size a ≤ S128x86.size a
  h_S128x86 : 0 < S128x86.numel
  inb_S1x86_S1x86_0_0 : ∀ a, (![0, 0] : Fin 2 → Nat) a + S1x86.size a ≤ S1x86.size a
  h_S1x86 : 0 < S1x86.numel
  shapeCasts_S1x86_S1x86 : S1x86.ShapeCasts S1x86
  broadcasts_S1x86_S5000x86 : S1x86.Broadcasts S5000x86
  concatenates_S5000x85_S5000x85_S5000x86_S5000x256_d1 : Shape.Concatenates [S5000x85, S5000x85, S5000x86] S5000x256 1
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x85_S5000x85_1_0_0_1_n_n_wf : DotDims.WF S5000x128 S128x85 S5000x85 [1] [0] [0] [1] [] []
  dot_S5000x128_S128x86_S5000x86_1_0_0_1_n_n_wf : DotDims.WF S5000x128 S128x86 S5000x86 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x85.size a ≤ S128x85.size a
  hwx0_4 : ∀ i : grid0.Coords, EltTy.bits .f32 = 32 ∨ (Rect.block (s := S128x85) S128x85.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x85.size a ≤ S1x85.size a
  hwx0_5 : ∀ i : grid0.Coords, EltTy.bits .f32 = 32 ∨ (Rect.block (s := S1x85) S1x85.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x85.size a ≤ S128x85.size a
  hwx0_6 : ∀ i : grid0.Coords, EltTy.bits .f32 = 32 ∨ (Rect.block (s := S128x85) S128x85.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x85.size a ≤ S1x85.size a
  hwx0_7 : ∀ i : grid0.Coords, EltTy.bits .f32 = 32 ∨ (Rect.block (s := S1x85) S1x85.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x86.size a ≤ S128x86.size a
  hwx0_8 : ∀ i : grid0.Coords, EltTy.bits .f32 = 32 ∨ (Rect.block (s := S128x86) S128x86.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x86.size a ≤ S1x86.size a
  hwx0_9 : ∀ i : grid0.Coords, EltTy.bits .f32 = 32 ∨ (Rect.block (s := S1x86) S1x86.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x40.size a ≤ S256x40.size a
  hwx0_10 : ∀ i : grid0.Coords, EltTy.bits .f32 = 32 ∨ (Rect.block (s := S256x40) S256x40.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x40.size a ≤ S1x40.size a
  hwx0_11 : ∀ i : grid0.Coords, EltTy.bits .f32 = 32 ∨ (Rect.block (s := S1x40) S1x40.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x40.size a ≤ S50000x40.size a
  hwx0_12 : ∀ i : grid0.Coords, EltTy.bits .f32 = 32 ∨ (Rect.block (s := S50000x40) S5000x40.size (cc0_transform_12 i) (hinb0_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x85_S5000x85_1_0_0_1_n_n : DotDims S5000x128 S128x85 S5000x85 where
  lhsContracting := [1]
  rhsContracting := [0]
  lhsNonContracting := [0]
  rhsNonContracting := [1]
  lhsBatch := []
  rhsBatch := []
  wf := dot_S5000x128_S128x85_S5000x85_1_0_0_1_n_n_wf
def dot_S5000x128_S128x86_S5000x86_1_0_0_1_n_n : DotDims S5000x128 S128x86 S5000x86 where
  lhsContracting := [1]
  rhsContracting := [0]
  lhsNonContracting := [0]
  rhsNonContracting := [1]
  lhsBatch := []
  rhsBatch := []
  wf := dot_S5000x128_S128x86_S5000x86_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x85.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x85.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x85.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x85.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x86.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x86.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256x40.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S1x40.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S5000x40.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x85 : Shape := ⟨2, ![128, 85]⟩
abbrev S85 : Shape := ⟨1, ![85]⟩
abbrev S128x86 : Shape := ⟨2, ![128, 86]⟩
abbrev S86 : Shape := ⟨1, ![86]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x85 : Shape := ⟨2, ![50000, 85]⟩
abbrev S1x85 : Shape := ⟨2, ![1, 85]⟩
abbrev S800000x128 : Shape := ⟨2, ![800000, 128]⟩
abbrev S50000x1 : Shape := ⟨2, ![50000, 1]⟩
abbrev S50000x86 : Shape := ⟨2, ![50000, 86]⟩
abbrev S1x86 : Shape := ⟨2, ![1, 86]⟩
abbrev S50000x256 : Shape := ⟨2, ![50000, 256]⟩
abbrev S50000x40 : Shape := ⟨2, ![50000, 40]⟩
abbrev S1x40 : Shape := ⟨2, ![1, 40]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x85, .f32⟩
  | .hbm, ⟨3, _⟩ => ⟨S85, .f32⟩
  | .hbm, ⟨4, _⟩ => ⟨S128x85, .f32⟩
  | .hbm, ⟨5, _⟩ => ⟨S85, .f32⟩
  | .hbm, ⟨6, _⟩ => ⟨S128x86, .f32⟩
  | .hbm, ⟨7, _⟩ => ⟨S86, .f32⟩
  | .hbm, ⟨8, _⟩ => ⟨S256x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x85, .f32⟩
  | .hbm, ⟨27, _⟩ => ⟨S1x85, .f32⟩
  | .hbm, ⟨28, _⟩ => ⟨S50000x85, .f32⟩
  | .hbm, ⟨29, _⟩ => ⟨S50000x85, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x85, .f32⟩
  | .hbm, ⟨47, _⟩ => ⟨S1x85, .f32⟩
  | .hbm, ⟨48, _⟩ => ⟨S50000x85, .f32⟩
  | .hbm, ⟨49, _⟩ => ⟨S50000x85, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x86, .f32⟩
  | .hbm, ⟨68, _⟩ => ⟨S1x86, .f32⟩
  | .hbm, ⟨69, _⟩ => ⟨S50000x86, .f32⟩
  | .hbm, ⟨70, _⟩ => ⟨S50000x86, .f32⟩
  | .hbm, ⟨71, _⟩ => ⟨S50000x256, .f32⟩
  | .hbm, ⟨72, _⟩ => ⟨S_, .f32⟩
  | .hbm, ⟨73, _⟩ => ⟨S50000x256, .f32⟩
  | .hbm, ⟨74, _⟩ => ⟨S50000x256, .f32⟩
  | .hbm, ⟨75, _⟩ => ⟨S50000x40, .f32⟩
  | .hbm, ⟨76, _⟩ => ⟨S1x40, .f32⟩
  | .hbm, ⟨77, _⟩ => ⟨S50000x40, .f32⟩
  | .hbm, ⟨78, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call0_cst : Ref sig .tc := ⟨.hbm, 72, rfl⟩
abbrev main_call0_v0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S85_S1x85_1 : S85.BroadcastsInDim S1x85 (![1] : Fin 1 → Fin S1x85.rank)
  bcast_S1x85_S50000x85_0_1 : S1x85.BroadcastsInDim S50000x85 (![0, 1] : Fin 2 → Fin S50000x85.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S86_S1x86_1 : S86.BroadcastsInDim S1x86 (![1] : Fin 1 → Fin S1x86.rank)
  bcast_S1x86_S50000x86_0_1 : S1x86.BroadcastsInDim S50000x86 (![0, 1] : Fin 2 → Fin S50000x86.rank)
  concatenates_S50000x85_S50000x85_S50000x86_S50000x256_d1 : Shape.Concatenates [S50000x85, S50000x85, S50000x86] S50000x256 1
  bcast_S_S50000x256 : S_.BroadcastsInDim S50000x256 (![] : Fin 0 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  dot_S50000x128_S128x85_S50000x85_1_0_0_1_n_n_wf : DotDims.WF S50000x128 S128x85 S50000x85 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x86_S50000x86_1_0_0_1_n_n_wf : DotDims.WF S50000x128 S128x86 S50000x86 [1] [0] [0] [1] [] []
  dot_S50000x256_S256x40_S50000x40_1_0_0_1_n_n_wf : DotDims.WF S50000x256 S256x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x85_S50000x85_1_0_0_1_n_n : DotDims S50000x128 S128x85 S50000x85 where
  lhsContracting := [1]
  rhsContracting := [0]
  lhsNonContracting := [0]
  rhsNonContracting := [1]
  lhsBatch := []
  rhsBatch := []
  wf := dot_S50000x128_S128x85_S50000x85_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x86_S50000x86_1_0_0_1_n_n : DotDims S50000x128 S128x86 S50000x86 where
  lhsContracting := [1]
  rhsContracting := [0]
  lhsNonContracting := [0]
  rhsNonContracting := [1]
  lhsBatch := []
  rhsBatch := []
  wf := dot_S50000x128_S128x86_S50000x86_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.Spec.lean ====
/-
  The function both programs compute, row by row.

  A row of the result depends on the same row of the three feature arrays x, A·x, A·A·x, on that row's inverse
  degree d, and on all the weights: with
      h0 = x·W0 + b0,   h1 = (A·x · d)·W1 + b1,   h2 = (A·A·x · d²)·W2 + b2      (85, 85 and 86 entries),
  the hidden row is max(·, 0) of the three joined end to end (256 entries) and the result row is
  hidden·Wf + bf (40 entries). Every product and sum is the extended reals' own, grouped exactly like this in both
  programs, so no law beyond this grouping is used and nothing needs to be finite.
-/
import Idealize.ShloMosaic.Lib.Pipeline.Value
import Idealize.ShloMosaic.Lib.ValueIdx

noncomputable section

open scoped BigOperators

namespace Cert.MixHop

open Idealize.ShloMosaic Idealize.ShloMosaic.ValueIdx

/-- Three rows of 85, 85 and 86 entries joined end to end into one of 256. -/
def cat3 {α : Type} (a : Fin 85 → α) (b : Fin 85 → α) (c : Fin 86 → α) (k : Fin 256) : α :=
  if h1 : k.val < 85 then a ⟨k.val, h1⟩
  else if h2 : k.val < 170 then b ⟨k.val - 85, by omega⟩
  else c ⟨k.val - 170, by omega⟩

/-- One projected row: a·W + b, entry k. -/
def hopRow {n : ℕ} (a : Fin 128 → EReal) (W : Fin 128 → Fin n → EReal) (b : Fin n → EReal) (k : Fin n) : EReal :=
  (∑ l : Fin 128, a l * W l k) + b k

/-- One row of the result from that row of x, A·x, A·A·x, its inverse degree d, and the weights. -/
def rowOut (x ax aax : Fin 128 → EReal) (d : EReal)
    (W0 : Fin 128 → Fin 85 → EReal) (b0 : Fin 85 → EReal) (W1 : Fin 128 → Fin 85 → EReal) (b1 : Fin 85 → EReal)
    (W2 : Fin 128 → Fin 86 → EReal) (b2 : Fin 86 → EReal) (Wf : Fin 256 → Fin 40 → EReal) (bf : Fin 40 → EReal)
    (q : Fin 40) : EReal :=
  (∑ k : Fin 256, max (cat3 (hopRow x W0 b0) (hopRow (fun l => ax l * d) W1 b1)
      (hopRow (fun l => aax l * (d * d)) W2 b2) k) 0 * Wf k q) + bf q

/-- The whole result over N rows: row r of the result is `rowOut` of row r of the inputs. -/
def mixOut (N : ℕ) (X A1 A2 : (⟨2, ![N, 128]⟩ : Shape).Idx → EReal) (D : (⟨1, ![N]⟩ : Shape).Idx → EReal)
    (W0 : (⟨2, ![128, 85]⟩ : Shape).Idx → EReal) (B0 : (⟨1, ![85]⟩ : Shape).Idx → EReal)
    (W1 : (⟨2, ![128, 85]⟩ : Shape).Idx → EReal) (B1 : (⟨1, ![85]⟩ : Shape).Idx → EReal)
    (W2 : (⟨2, ![128, 86]⟩ : Shape).Idx → EReal) (B2 : (⟨1, ![86]⟩ : Shape).Idx → EReal)
    (Wf : (⟨2, ![256, 40]⟩ : Shape).Idx → EReal) (Bf : (⟨1, ![40]⟩ : Shape).Idx → EReal) :
    (⟨2, ![N, 40]⟩ : Shape).Idx → EReal := fun i =>
  let r : Fin N := i 0
  let q : Fin 40 := i 1
  rowOut (fun l => X (ix2 r l)) (fun l => A1 (ix2 r l)) (fun l => A2 (ix2 r l)) (D (ix1 r))
    (fun l k => W0 (ix2 l k)) (fun k => B0 (ix1 k)) (fun l k => W1 (ix2 l k)) (fun k => B1 (ix1 k))
    (fun l k => W2 (ix2 l k)) (fun k => B2 (ix1 k)) (fun k j => Wf (ix2 k j)) (fun j => Bf (ix1 j)) q

theorem mixOut_apply (N : ℕ) (X A1 A2 : (⟨2, ![N, 128]⟩ : Shape).Idx → EReal) (D : (⟨1, ![N]⟩ : Shape).Idx → EReal)
    (W0 : (⟨2, ![128, 85]⟩ : Shape).Idx → EReal) (B0 : (⟨1, ![85]⟩ : Shape).Idx → EReal)
    (W1 : (⟨2, ![128, 85]⟩ : Shape).Idx → EReal) (B1 : (⟨1, ![85]⟩ : Shape).Idx → EReal)
    (W2 : (⟨2, ![128, 86]⟩ : Shape).Idx → EReal) (B2 : (⟨1, ![86]⟩ : Shape).Idx → EReal)
    (Wf : (⟨2, ![256, 40]⟩ : Shape).Idx → EReal) (Bf : (⟨1, ![40]⟩ : Shape).Idx → EReal) (r : Fin N) (q : Fin 40) :
    mixOut N X A1 A2 D W0 B0 W1 B1 W2 B2 Wf Bf (ix2 r q)
      = rowOut (fun l => X (ix2 r l)) (fun l => A1 (ix2 r l)) (fun l => A2 (ix2 r l)) (D (ix1 r))
          (fun l k => W0 (ix2 l k)) (fun k => B0 (ix1 k)) (fun l k => W1 (ix2 l k)) (fun k => B1 (ix1 k))
          (fun l k => W2 (ix2 l k)) (fun k => B2 (ix1 k)) (fun k j => Wf (ix2 k j)) (fun j => Bf (ix1 j)) q := rfl

/-- Three matrices of N rows and 85, 85, 86 columns joined along the columns, read at (p, k): row p of the three
    joined end to end, at k. -/
theorem concat3_apply {α : Type} {N : ℕ} (x1 x2 : (⟨2, ![N, 85]⟩ : Shape).Idx → α) (x3 : (⟨2, ![N, 86]⟩ : Shape).Idx → α)
    (h : Shape.Concatenates (([⟨⟨2, ![N, 85]⟩, x1⟩, ⟨⟨2, ![N, 85]⟩, x2⟩, ⟨⟨2, ![N, 86]⟩, x3⟩] :
      List ((s : Shape) × (s.Idx → α))).map (·.1)) ⟨2, ![N, 256]⟩ 1) (p : Fin N) (k : Fin 256) :
    concatenate ⟨2, ![N, 256]⟩ 1 [⟨⟨2, ![N, 85]⟩, x1⟩, ⟨⟨2, ![N, 85]⟩, x2⟩, ⟨⟨2, ![N, 86]⟩, x3⟩] h (ix2 p k)
      = cat3 (fun k' => x1 (ix2 p k')) (fun k' => x2 (ix2 p k')) (fun k' => x3 (ix2 p k')) k := by
  unfold cat3
  split
  · rename_i h1
    exact concatenate_apply_piece (1 : Fin 2) _ h (ix2 p k) 0 (by show (0 : ℕ) < 3; decide) ⟨2, ![N, 85]⟩ x1 rfl rfl 0 rfl
      (ix2 p ⟨k.val, h1⟩) (fun b hb => by
        match b with
        | ⟨0, _⟩ => rfl
        | ⟨1, _⟩ => exact absurd rfl hb) (by show 0 + k.val = k.val; omega)
  · rename_i h1
    split
    · rename_i h2
      exact concatenate_apply_piece (1 : Fin 2) _ h (ix2 p k) 1 (by show (1 : ℕ) < 3; decide) ⟨2, ![N, 85]⟩ x2 rfl rfl 85 rfl
        (ix2 p ⟨k.val - 85, by omega⟩) (fun b hb => by
          match b with
          | ⟨0, _⟩ => rfl
          | ⟨1, _⟩ => exact absurd rfl hb) (by show 85 + (k.val - 85) = k.val; omega)
    · rename_i h2
      exact concatenate_apply_piece (1 : Fin 2) _ h (ix2 p k) 2 (by show (2 : ℕ) < 3; decide) ⟨2, ![N, 86]⟩ x3 rfl rfl 170 rfl
        (ix2 p ⟨k.val - 170, by have := k.isLt; omega⟩) (fun b hb => by
          match b with
          | ⟨0, _⟩ => rfl
          | ⟨1, _⟩ => exact absurd rfl hb) (by show 170 + (k.val - 170) = k.val; omega)

end Cert.MixHop

end
-- ==== Proof.RefResult.lean ====
/-
  The result array as one function of the ten argument arrays: the specification's row function over all 50000
  rows, with A·x, A·A·x and the inverse degrees the reference's own stages of x and edge_index (gather the
  neighbour rows and add them into their target rows; 1 / max(out-degree, 1)), which are never opened.
-/
import proofs.«117592_j24481313587860_1_alg».proof.Proof.Gen.ReferenceIdeal.Read
import proofs.«117592_j24481313587860_1_alg».proof.Proof.Spec

noncomputable section

namespace Cert.MixHop.Ref

open Cert.ReferenceIdeal Cert.ReferenceIdeal.Read Idealize.ShloMosaic Cert.MixHop

/-- The result array as one function of the ten argument arrays. -/
def result (x0 : (⟨S50000x128, .f32⟩ : BufTy).Contents (Elt Ideal)) (x1 : (⟨S2x800000, .i32⟩ : BufTy).Contents (Elt Ideal)) (x2 : (⟨S128x85, .f32⟩ : BufTy).Contents (Elt Ideal)) (x3 : (⟨S85, .f32⟩ : BufTy).Contents (Elt Ideal)) (x4 : (⟨S128x85, .f32⟩ : BufTy).Contents (Elt Ideal)) (x5 : (⟨S85, .f32⟩ : BufTy).Contents (Elt Ideal)) (x6 : (⟨S128x86, .f32⟩ : BufTy).Contents (Elt Ideal)) (x7 : (⟨S86, .f32⟩ : BufTy).Contents (Elt Ideal)) (x8 : (⟨S256x40, .f32⟩ : BufTy).Contents (Elt Ideal)) (x9 : (⟨S40, .f32⟩ : BufTy).Contents (Elt Ideal)) :
    S50000x40.Idx → EReal :=
  mixOut 50000 x0 (val_main_v25 (F := Ideal) x0 x1) (val_main_v42 (F := Ideal) x0 x1) (val_main_v11 (F := Ideal) x1)
    x2 x3 x4 x5 x6 x7 x8 x9

end Cert.MixHop.Ref

end
-- ==== Proof.RefValue.lean ====
/-
  The reference's result is the row function of the specification, with A·x, A·A·x and the inverse degrees left as
  the reference's own stages of its two inputs x and edge_index (they are never opened here).

  Read at (r, q): the last product is the sum over the 256 hidden entries of row r times column q of Wf, plus bf q;
  hidden entry k is max(·, 0) of the three projections joined end to end; projection j at (r, k') is the
  sum over l of (row r of its left operand)·(column k' of Wj) plus bj k'; the left operands are x, A·x scaled
  by the row's inverse degree, and A·A·x scaled by its square.
-/
import proofs.«117592_j24481313587860_1_alg».proof.Proof.Gen.ReferenceIdeal.Read
import proofs.«117592_j24481313587860_1_alg».proof.Proof.Spec
import proofs.«117592_j24481313587860_1_alg».proof.Proof.RefResult

noncomputable section

open scoped BigOperators

namespace Cert.MixHop.Ref

open Cert.ReferenceIdeal Cert.ReferenceIdeal.Read Idealize.ShloMosaic Idealize.ShloMosaic.ValueIdx Cert.MixHop

/-- Hop 0 at (r, k): row r of x against column k of W0, plus b0 k. -/
theorem hop0_row (x0 : (⟨S50000x128, .f32⟩ : BufTy).Contents (Elt Ideal)) (x2 : (⟨S128x85, .f32⟩ : BufTy).Contents (Elt Ideal)) (x3 : (⟨S85, .f32⟩ : BufTy).Contents (Elt Ideal)) (r : Fin 50000) (k : Fin 85) :
    val_main_v15 (F := Ideal) x0 x2 x3 (ix2 r k)
      = hopRow (fun l => x0 (ix2 r l)) (fun l k => x2 (ix2 l k)) (fun k => x3 (ix1 k)) k := by
  have el : ∀ l, lidx_main_v12 (ix2 r k) l = ix2 r l := fun l => funext fun a => Fin.ext (by match a with | ⟨0, _⟩ => rfl | ⟨1, _⟩ => rfl)
  have er : ∀ l, ridx_main_v12 (ix2 r k) l = ix2 l k := fun l => funext fun a => Fin.ext (by match a with | ⟨0, _⟩ => rfl | ⟨1, _⟩ => rfl)
  have eb : idx_main_v13 (idx_main_v14 (ix2 r k)) = ix1 k := funext fun a => Fin.ext (by match a with | ⟨0, _⟩ => rfl)
  rw [val_main_v15_apply, val_main_v12_apply, val_main_v14_apply, val_main_v13_apply]
  simp only [el, er, eb, Ideal.addf_def, hopRow]

/-- Hop 1 at (r, k): row r of A·x, each entry times the row's inverse degree, against column k of W1, plus b1 k. -/
theorem hop1_row (x0 : (⟨S50000x128, .f32⟩ : BufTy).Contents (Elt Ideal)) (x1 : (⟨S2x800000, .i32⟩ : BufTy).Contents (Elt Ideal)) (x4 : (⟨S128x85, .f32⟩ : BufTy).Contents (Elt Ideal)) (x5 : (⟨S85, .f32⟩ : BufTy).Contents (Elt Ideal)) (r : Fin 50000) (k : Fin 85) :
    val_main_v32 (F := Ideal) x0 x1 x4 x5 (ix2 r k)
      = hopRow (fun l => val_main_v25 (F := Ideal) x0 x1 (ix2 r l) * val_main_v11 (F := Ideal) x1 (ix1 r))
          (fun l k => x4 (ix2 l k)) (fun k => x5 (ix1 k)) k := by
  have el : ∀ l, lidx_main_v29 (ix2 r k) l = ix2 r l := fun l => funext fun a => Fin.ext (by match a with | ⟨0, _⟩ => rfl | ⟨1, _⟩ => rfl)
  have er : ∀ l, ridx_main_v29 (ix2 r k) l = ix2 l k := fun l => funext fun a => Fin.ext (by match a with | ⟨0, _⟩ => rfl | ⟨1, _⟩ => rfl)
  have eb : idx_main_v30 (idx_main_v31 (ix2 r k)) = ix1 k := funext fun a => Fin.ext (by match a with | ⟨0, _⟩ => rfl)
  have ed : ∀ l : Fin 128, idx_main_v26 (idx_main_v27 (ix2 r l)) = ix1 r := fun l => funext fun a => Fin.ext (by match a with | ⟨0, _⟩ => rfl)
  rw [val_main_v32_apply, val_main_v29_apply, val_main_v31_apply, val_main_v30_apply]
  simp only [el, er, eb]
  rw [Ideal.addf_def]
  unfold hopRow
  refine congrArg₂ (· + ·) (Finset.sum_congr rfl fun l _ => ?_) rfl
  refine congrArg (· * x4 (ix2 l k)) ?_
  rw [val_main_v28_apply, val_main_v27_apply, val_main_v26_apply, ed l, Ideal.mulf_def]

/-- Hop 2 at (r, k): row r of A·A·x, each entry times the square of the row's inverse degree, against column k of W2,
    plus b2 k. -/
theorem hop2_row (x0 : (⟨S50000x128, .f32⟩ : BufTy).Contents (Elt Ideal)) (x1 : (⟨S2x800000, .i32⟩ : BufTy).Contents (Elt Ideal)) (x6 : (⟨S128x86, .f32⟩ : BufTy).Contents (Elt Ideal)) (x7 : (⟨S86, .f32⟩ : BufTy).Contents (Elt Ideal)) (r : Fin 50000) (k : Fin 86) :
    val_main_v50 (F := Ideal) x0 x1 x6 x7 (ix2 r k)
      = hopRow (fun l => val_main_v42 (F := Ideal) x0 x1 (ix2 r l)
            * (val_main_v11 (F := Ideal) x1 (ix1 r) * val_main_v11 (F := Ideal) x1 (ix1 r)))
          (fun l k => x6 (ix2 l k)) (fun k => x7 (ix1 k)) k := by
  have el : ∀ l, lidx_main_v47 (ix2 r k) l = ix2 r l := fun l => funext fun a => Fin.ext (by match a with | ⟨0, _⟩ => rfl | ⟨1, _⟩ => rfl)
  have er : ∀ l, ridx_main_v47 (ix2 r k) l = ix2 l k := fun l => funext fun a => Fin.ext (by match a with | ⟨0, _⟩ => rfl | ⟨1, _⟩ => rfl)
  have eb : idx_main_v48 (idx_main_v49 (ix2 r k)) = ix1 k := funext fun a => Fin.ext (by match a with | ⟨0, _⟩ => rfl)
  have ed : ∀ l : Fin 128, idx_main_v44 (idx_main_v45 (ix2 r l)) = ix1 r := fun l => funext fun a => Fin.ext (by match a with | ⟨0, _⟩ => rfl)
  rw [val_main_v50_apply, val_main_v47_apply, val_main_v49_apply, val_main_v48_apply]
  simp only [el, er, eb]
  rw [Ideal.addf_def]
  unfold hopRow
  refine congrArg₂ (· + ·) (Finset.sum_congr rfl fun l _ => ?_) rfl
  refine congrArg (· * x6 (ix2 l k)) ?_
  rw [val_main_v46_apply, val_main_v45_apply, val_main_v44_apply, val_main_v43_apply, ed l, Ideal.mulf_def,
    Ideal.mulf_def]

/-- The hidden row at (r, k): the three hops joined end to end, then max with 0. -/
theorem hidden_row (x0 : (⟨S50000x128, .f32⟩ : BufTy).Contents (Elt Ideal)) (x1 : (⟨S2x800000, .i32⟩ : BufTy).Contents (Elt Ideal)) (x2 : (⟨S128x85, .f32⟩ : BufTy).Contents (Elt Ideal)) (x3 : (⟨S85, .f32⟩ : BufTy).Contents (Elt Ideal)) (x4 : (⟨S128x85, .f32⟩ : BufTy).Contents (Elt Ideal)) (x5 : (⟨S85, .f32⟩ : BufTy).Contents (Elt Ideal)) (x6 : (⟨S128x86, .f32⟩ : BufTy).Contents (Elt Ideal)) (x7 : (⟨S86, .f32⟩ : BufTy).Contents (Elt Ideal)) (r : Fin 50000) (k : Fin 256) :
    val_main_v52 (F := Ideal) x0 x1 x2 x3 x4 x5 x6 x7 (ix2 r k)
      = max (cat3 (hopRow (fun l => x0 (ix2 r l)) (fun l k => x2 (ix2 l k)) (fun k => x3 (ix1 k)))
          (hopRow (fun l => val_main_v25 (F := Ideal) x0 x1 (ix2 r l) * val_main_v11 (F := Ideal) x1 (ix1 r))
            (fun l k => x4 (ix2 l k)) (fun k => x5 (ix1 k)))
          (hopRow (fun l => val_main_v42 (F := Ideal) x0 x1 (ix2 r l)
              * (val_main_v11 (F := Ideal) x1 (ix1 r) * val_main_v11 (F := Ideal) x1 (ix1 r)))
            (fun l k => x6 (ix2 l k)) (fun k => x7 (ix1 k))) k) 0 := by
  rw [val_main_v52_apply, val_main_call0_v0_apply, val_main_call0_cst_apply]
  unfold val_main_v51
  rw [concat3_apply (N := 50000)]
  simp only [hop0_row, hop1_row, hop2_row]
  show max _ (Ideal.ofBits .f32 0x00000000#32) = _
  rw [Ideal.ofBits_zero_f32]

/-- The reference's last stage is the specification's function of the arguments. -/
theorem stage_eq (x0 : (⟨S50000x128, .f32⟩ : BufTy).Contents (Elt Ideal)) (x1 : (⟨S2x800000, .i32⟩ : BufTy).Contents (Elt Ideal)) (x2 : (⟨S128x85, .f32⟩ : BufTy).Contents (Elt Ideal)) (x3 : (⟨S85, .f32⟩ : BufTy).Contents (Elt Ideal)) (x4 : (⟨S128x85, .f32⟩ : BufTy).Contents (Elt Ideal)) (x5 : (⟨S85, .f32⟩ : BufTy).Contents (Elt Ideal)) (x6 : (⟨S128x86, .f32⟩ : BufTy).Contents (Elt Ideal)) (x7 : (⟨S86, .f32⟩ : BufTy).Contents (Elt Ideal)) (x8 : (⟨S256x40, .f32⟩ : BufTy).Contents (Elt Ideal)) (x9 : (⟨S40, .f32⟩ : BufTy).Contents (Elt Ideal)) :
    val_main_v56 (F := Ideal) x0 x1 x2 x3 x4 x5 x6 x7 x8 x9 = result x0 x1 x2 x3 x4 x5 x6 x7 x8 x9 := by
  funext i
  obtain ⟨r, q, rfl⟩ : ∃ (r : Fin 50000) (q : Fin 40), i = ix2 r q := ⟨i 0, i 1, eq_ix2 i⟩
  have el : ∀ k, lidx_main_v53 (ix2 r q) k = ix2 r k := fun k => funext fun a => Fin.ext (by match a with | ⟨0, _⟩ => rfl | ⟨1, _⟩ => rfl)
  have er : ∀ k, ridx_main_v53 (ix2 r q) k = ix2 k q := fun k => funext fun a => Fin.ext (by match a with | ⟨0, _⟩ => rfl | ⟨1, _⟩ => rfl)
  have eb : idx_main_v54 (idx_main_v55 (ix2 r q)) = ix1 q := funext fun a => Fin.ext (by match a with | ⟨0, _⟩ => rfl)
  unfold result
  rw [mixOut_apply, val_main_v56_apply, val_main_v53_apply, val_main_v55_apply, val_main_v54_apply]
  simp only [el, er, eb, hidden_row]
  rfl

end Cert.MixHop.Ref

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  The kernel body's arithmetic on one block of 5000 rows, read at an entry.

  The body computes, from the blocks it loads, exactly the row function of the specification: three matrix
  products into zero accumulators with a bias row added (the second and third left operands first scaled, entry by
  entry, by the block's inverse-degree column and by its square), the three results joined along the columns,
  max with 0, and a last matrix product with the bias row added. Each matrix product at an entry is the plain sum
  over the contraction coordinate; a bias row broadcast over the rows reads its one row; the inverse-degree column
  broadcast over the columns reads its row's entry.
-/
import proofs.«117592_j24481313587860_1_alg».proof.Proof.Gen.KernelIdeal.Skeleton
import proofs.«117592_j24481313587860_1_alg».proof.Proof.Spec
import proofs.«117592_j24481313587860_1_alg».proof.Proof.LibPlainDot
import proofs.«117592_j24481313587860_1_alg».proof.Proof.LibColumn
import Idealize.ShloMosaic.Lib.ValueLayout
import Idealize.ShloMosaic.PureOps.Ideal.Laws

noncomputable section

open scoped BigOperators

namespace Cert.MixHop.Kernel

open Cert.KernelIdeal Cert.KernelIdeal.Gen Idealize.ShloMosaic Idealize.ShloMosaic.ValueIdx Cert.MixHop

/-- The three products' dimension numbers are the plain ones: rows by columns, one contracted axis. -/
theorem dot85_plain : dot_S5000x128_S128x85_S5000x85_1_0_0_1_n_n = DotDims.plain 5000 128 85 := rfl
theorem dot86_plain : dot_S5000x128_S128x86_S5000x86_1_0_0_1_n_n = DotDims.plain 5000 128 86 := rfl
theorem dot40_plain : dot_S5000x256_S256x40_S5000x40_1_0_0_1_n_n = DotDims.plain 5000 256 40 := rfl

/-- A block's rows times a weight matrix into the zero accumulator, plus a bias row broadcast over the rows, at
    (p, k): row p against column k, plus the bias at k. -/
theorem proj_apply {K n : ℕ} (d : DotDims ⟨2, ![5000, K]⟩ ⟨2, ![K, n]⟩ ⟨2, ![5000, n]⟩) (hd : d = DotDims.plain 5000 K n)
    (a : FVec Ideal ⟨2, ![5000, K]⟩ .f32) (W : FVec Ideal ⟨2, ![K, n]⟩ .f32) (b : FVec Ideal ⟨2, ![1, n]⟩ .f32)
    (hb : (⟨2, ![1, n]⟩ : Shape).Broadcasts ⟨2, ![5000, n]⟩)
    (p : Fin 5000) (k : Fin n) :
    addf (matmul d none a W (constant (F := Ideal) ⟨2, ![5000, n]⟩ .f32 0x00000000#32))
        (broadcastTo ⟨2, ![5000, n]⟩ b hb) (ix2 p k)
      = (∑ l : Fin K, a (ix2 p l) * W (ix2 l k)) + b (ix2 (0 : Fin 1) k) := by
  subst hd
  show FloatOps.matmul (DotDims.plain 5000 K n) none a W (constant (F := Ideal) ⟨2, ![5000, n]⟩ .f32 0x00000000#32) (ix2 p k)
      + broadcastTo ⟨2, ![5000, n]⟩ b hb (ix2 p k) = _
  rw [LibPlainDot.matmul_zero_apply, broadcastTo_1b_ab_apply]

/-- The hidden block at (p, k): the three projections of row p joined end to end, then max with 0. -/
theorem hidden_apply (v0 v1 v3 : Vec Ideal S5000x128 .f32) (v5 : Vec Ideal S5000x1 .f32) (v8 : Vec Ideal S128x85 .f32) (v10 : Vec Ideal S1x85 .f32) (v16 : Vec Ideal S128x85 .f32) (v18 : Vec Ideal S1x85 .f32) (v24 : Vec Ideal S128x86 .f32) (v26 : Vec Ideal S1x86 .f32)
    (p : Fin 5000) (k : Fin 256) :
    k0_pay2 (F := Ideal) v0 v1 v3 v5 v8 v10 v16 v18 v24 v26 (ix2 p k)
      = max (cat3 (hopRow (fun l => v0 (ix2 p l)) (fun l k => v8 (ix2 l k)) (fun k => v10 (ix2 (0 : Fin 1) k)))
          (hopRow (fun l => v1 (ix2 p l) * v5 (ix2 p (0 : Fin 1))) (fun l k => v16 (ix2 l k)) (fun k => v18 (ix2 (0 : Fin 1) k)))
          (hopRow (fun l => v3 (ix2 p l) * (v5 (ix2 p (0 : Fin 1)) * v5 (ix2 p (0 : Fin 1)))) (fun l k => v24 (ix2 l k))
            (fun k => v26 (ix2 (0 : Fin 1) k))) k) 0 := by
  unfold k0_pay2
  show max (concatenate S5000x256 1 _ _ (ix2 p k)) (Ideal.ofBits .f32 0x00000000#32) = _
  rw [concat3_apply (N := 5000), Ideal.ofBits_zero_f32]
  simp only [proj_apply _ dot85_plain, proj_apply _ dot86_plain, mulf_apply, shapeCast_self,
    LibColumn.broadcastTo_a1_ab_apply]
  rfl

/-- The stored block at (p, q): the specification's row function of row p of the loaded blocks. -/
theorem pay_apply (v0 v1 v3 : Vec Ideal S5000x128 .f32) (v5 : Vec Ideal S5000x1 .f32) (v8 : Vec Ideal S128x85 .f32) (v10 : Vec Ideal S1x85 .f32) (v16 : Vec Ideal S128x85 .f32) (v18 : Vec Ideal S1x85 .f32) (v24 : Vec Ideal S128x86 .f32) (v26 : Vec Ideal S1x86 .f32)
    (v33 : Vec Ideal S256x40 .f32) (v35 : Vec Ideal S1x40 .f32) (p : Fin 5000) (q : Fin 40) :
    k0_pay1 (F := Ideal) (k0_pay2 v0 v1 v3 v5 v8 v10 v16 v18 v24 v26) v33 v35 (ix2 p q)
      = rowOut (fun l => v0 (ix2 p l)) (fun l => v1 (ix2 p l)) (fun l => v3 (ix2 p l)) (v5 (ix2 p (0 : Fin 1)))
          (fun l k => v8 (ix2 l k)) (fun k => v10 (ix2 (0 : Fin 1) k)) (fun l k => v16 (ix2 l k))
          (fun k => v18 (ix2 (0 : Fin 1) k)) (fun l k => v24 (ix2 l k)) (fun k => v26 (ix2 (0 : Fin 1) k))
          (fun k j => v33 (ix2 k j)) (fun j => v35 (ix2 (0 : Fin 1) j)) q := by
  unfold k0_pay1
  simp only [shapeCast_self]
  refine (proj_apply _ dot40_plain _ v33 v35 _ p q).trans ?_
  simp only [hidden_apply]
  rfl

end Cert.MixHop.Kernel

end
-- ==== Proof.KernelHost.lean ====
/-
  What the region finds in the arrays the host computed before it.

  Three of the kernel's operands are computed by the host before the launch, by exactly the operations the
  reference applies to the same two inputs: the neighbour sums A·x and A·A·x (gather the neighbour rows, add them
  into their target rows) and the inverse degrees 1 / max(deg, 1) as a column. They are carried here as the
  reference's own stages of x and edge_index, never opened. The four bias vectors reach the region as one-row
  matrices.
-/
import proofs.«117592_j24481313587860_1_alg».proof.Proof.Gen.KernelIdeal.Frame
import proofs.«117592_j24481313587860_1_alg».proof.Proof.Gen.ReferenceIdeal.Read
import Idealize.ShloMosaic.Lib.StableHlo.Run

noncomputable section

namespace Cert.MixHop.Kernel

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

set_option maxHeartbeats 4000000 in
/-- The second operand's array is A·x, as the reference computes it from the same x and edge_index. -/
theorem V_ax (c : Dev nD) : (V m c main_v21 : S50000x128.Idx → EReal)
    = Cert.ReferenceIdeal.Read.val_main_v25 (F := Ideal) (m ((c : Thread nD τ).loc main_arg0)) (m ((c : Thread nD τ).loc main_arg1)) := by
  dsimp only [Gen.V, Gen.hostOps0]; after_results_simp; rfl

set_option maxHeartbeats 4000000 in
/-- The third operand's array is A·A·x, likewise. -/
theorem V_aax (c : Dev nD) : (V m c main_v31 : S50000x128.Idx → EReal)
    = Cert.ReferenceIdeal.Read.val_main_v42 (F := Ideal) (m ((c : Thread nD τ).loc main_arg0)) (m ((c : Thread nD τ).loc main_arg1)) := by
  dsimp only [Gen.V, Gen.hostOps0]; after_results_simp; rfl

/-- The fourth operand's array is the inverse degrees, as a column. -/
theorem V_dinv (c : Dev nD) : (V m c main_v32 : S50000x1.Idx → EReal)
    = shapeCast S50000x1 (Cert.ReferenceIdeal.Read.val_main_v11 (F := Ideal) (m ((c : Thread nD τ).loc main_arg1))) shapeCasts_S50000_S50000x1 := by
  dsimp only [Gen.V, Gen.hostOps0]; after_results; rfl

/-- The bias operands are the bias arguments as one-row matrices. -/
theorem V_b0 (c : Dev nD) : (V m c main_v33 : S1x85.Idx → EReal)
    = shapeCast S1x85 (m ((c : Thread nD τ).loc main_arg3)) shapeCasts_S85_S1x85 := by
  dsimp only [Gen.V, Gen.hostOps0]; after_results; rfl

theorem V_b1 (c : Dev nD) : (V m c main_v34 : S1x85.Idx → EReal)
    = shapeCast S1x85 (m ((c : Thread nD τ).loc main_arg5)) shapeCasts_S85_S1x85 := by
  dsimp only [Gen.V, Gen.hostOps0]; after_results; rfl

theorem V_b2 (c : Dev nD) : (V m c main_v35 : S1x86.Idx → EReal)
    = shapeCast S1x86 (m ((c : Thread nD τ).loc main_arg7)) shapeCasts_S86_S1x86 := by
  dsimp only [Gen.V, Gen.hostOps0]; after_results; rfl

theorem V_bf (c : Dev nD) : (V m c main_v36 : S1x40.Idx → EReal)
    = shapeCast S1x40 (m ((c : Thread nD τ).loc main_arg9)) shapeCasts_S40_S1x40 := by
  dsimp only [Gen.V, Gen.hostOps0]; after_results; rfl

end Cert.MixHop.Kernel

end
-- ==== Proof.KernelBlocks.lean ====
/-
  From the blocks to the whole result array.

  The grid has ten points; point t handles rows 5000·t … 5000·t + 4999. The three feature operands, the
  inverse-degree column and the result move with t along the rows; the weights and bias rows are whole at every
  point. So an entry (p, ·) of a row-blocked operand's block at point t is entry (5000·t + p, ·) of its array, and
  what point t writes back is the specification's result restricted to its rows. The ten blocks cover every row
  (row r belongs to point r / 5000), so the result array after the run is the specification's function of the
  arguments, whole.
-/
import proofs.«117592_j24481313587860_1_alg».proof.Proof.Gen.KernelIdeal.Value
import proofs.«117592_j24481313587860_1_alg».proof.Proof.KernelPayload
import proofs.«117592_j24481313587860_1_alg».proof.Proof.KernelHost
import proofs.«117592_j24481313587860_1_alg».proof.Proof.RefResult
import proofs.«117592_j24481313587860_1_alg».proof.Proof.LibColumn
import Idealize.ShloMosaic.Lib.ValueLayout

noncomputable section

open scoped BigOperators

namespace Cert.MixHop.Kernel

open Cert.KernelIdeal Cert.KernelIdeal.Gen Idealize.ShloMosaic Idealize.ShloMosaic.TcCoe Idealize.SL.Sem
  Idealize.ShloMosaic.ValueIdx Cert.MixHop
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the ten points: the row-blocked windows sit at block (t, 0), the whole ones at (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = t.val
    ∧ win0_12.index t (1 : Fin 2) = 0 :=
  (by decide +kernel : ∀ t : Fin grid0.N, _)

/-- The array row that row p of point t's blocks is. -/
def row (t : Fin cfg0.N) (p : Fin 5000) : Fin 50000 :=
  ⟨t.val * 5000 + p.val, by have ht := t.isLt; have hN : cfg0.N = 10 := N_0; have := p.isLt; omega⟩

/-- Where an entry of window 0's block at point t sits in its array. -/
theorem emb0 (t : Fin cfg0.N) (p : Fin 5000) (l : Fin 128) :
    ((cfg0.win 0).blk t).view.emb (ix2 p l : S5000x128.Idx) = (ix2 (row t p) l : S50000x128.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_0.index t (0 : Fin 2) * 5000 + 1 * p.val = t.val * 5000 + p.val
    omega
  | ⟨1, _⟩ =>
    show win0_0.index t (1 : Fin 2) * 128 + 1 * l.val = l.val
    omega

/-- Any array read through window 0's block at point t, at an entry. -/
theorem read0 (A : S50000x128.Idx → EReal) (t : Fin cfg0.N) (p : Fin 5000) (l : Fin 128) :
    ((cfg0.win 0).blk t).view.read (Elt Ideal) A (ix2 p l : S5000x128.Idx) = A (ix2 (row t p) l : S50000x128.Idx) := by
  show A (((cfg0.win 0).blk t).view.emb (ix2 p l : S5000x128.Idx)) = _
  exact congrArg A (emb0 t p l)

/-- Window 0's block at point t, read at an entry. -/
theorem blk0 (c : Dev nD) (t : Fin cfg0.N) (p : Fin 5000) (l : Fin 128) :
    iblk m c 0 t (ix2 p l : S5000x128.Idx) = (m ((c : Thread nD τ).loc main_arg0)) (ix2 (row t p) l : S50000x128.Idx) := by
  unfold iblk
  rw [show V m c (Pipeline.arrRef spec0 0) = (m ((c : Thread nD τ).loc main_arg0)) from V_main_arg0 m c]
  exact read0 (m ((c : Thread nD τ).loc main_arg0)) t p l

/-- Where an entry of window 1's block at point t sits in its array. -/
theorem emb1 (t : Fin cfg0.N) (p : Fin 5000) (l : Fin 128) :
    ((cfg0.win 1).blk t).view.emb (ix2 p l : S5000x128.Idx) = (ix2 (row t p) l : S50000x128.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_1.index t (0 : Fin 2) * 5000 + 1 * p.val = t.val * 5000 + p.val
    omega
  | ⟨1, _⟩ =>
    show win0_1.index t (1 : Fin 2) * 128 + 1 * l.val = l.val
    omega

/-- Any array read through window 1's block at point t, at an entry. -/
theorem read1 (A : S50000x128.Idx → EReal) (t : Fin cfg0.N) (p : Fin 5000) (l : Fin 128) :
    ((cfg0.win 1).blk t).view.read (Elt Ideal) A (ix2 p l : S5000x128.Idx) = A (ix2 (row t p) l : S50000x128.Idx) := by
  show A (((cfg0.win 1).blk t).view.emb (ix2 p l : S5000x128.Idx)) = _
  exact congrArg A (emb1 t p l)

/-- Window 1's block at point t, read at an entry. -/
theorem blk1 (c : Dev nD) (t : Fin cfg0.N) (p : Fin 5000) (l : Fin 128) :
    iblk m c 1 t (ix2 p l : S5000x128.Idx) = (Cert.ReferenceIdeal.Read.val_main_v25 (F := Ideal) (m ((c : Thread nD τ).loc main_arg0)) (m ((c : Thread nD τ).loc main_arg1))) (ix2 (row t p) l : S50000x128.Idx) := by
  unfold iblk
  rw [show V m c (Pipeline.arrRef spec0 1) = (Cert.ReferenceIdeal.Read.val_main_v25 (F := Ideal) (m ((c : Thread nD τ).loc main_arg0)) (m ((c : Thread nD τ).loc main_arg1))) from V_ax m c]
  exact read1 (Cert.ReferenceIdeal.Read.val_main_v25 (F := Ideal) (m ((c : Thread nD τ).loc main_arg0)) (m ((c : Thread nD τ).loc main_arg1))) t p l

/-- Where an entry of window 2's block at point t sits in its array. -/
theorem emb2 (t : Fin cfg0.N) (p : Fin 5000) (l : Fin 128) :
    ((cfg0.win 2).blk t).view.emb (ix2 p l : S5000x128.Idx) = (ix2 (row t p) l : S50000x128.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_2.index t (0 : Fin 2) * 5000 + 1 * p.val = t.val * 5000 + p.val
    omega
  | ⟨1, _⟩ =>
    show win0_2.index t (1 : Fin 2) * 128 + 1 * l.val = l.val
    omega

/-- Any array read through window 2's block at point t, at an entry. -/
theorem read2 (A : S50000x128.Idx → EReal) (t : Fin cfg0.N) (p : Fin 5000) (l : Fin 128) :
    ((cfg0.win 2).blk t).view.read (Elt Ideal) A (ix2 p l : S5000x128.Idx) = A (ix2 (row t p) l : S50000x128.Idx) := by
  show A (((cfg0.win 2).blk t).view.emb (ix2 p l : S5000x128.Idx)) = _
  exact congrArg A (emb2 t p l)

/-- Window 2's block at point t, read at an entry. -/
theorem blk2 (c : Dev nD) (t : Fin cfg0.N) (p : Fin 5000) (l : Fin 128) :
    iblk m c 2 t (ix2 p l : S5000x128.Idx) = (Cert.ReferenceIdeal.Read.val_main_v42 (F := Ideal) (m ((c : Thread nD τ).loc main_arg0)) (m ((c : Thread nD τ).loc main_arg1))) (ix2 (row t p) l : S50000x128.Idx) := by
  unfold iblk
  rw [show V m c (Pipeline.arrRef spec0 2) = (Cert.ReferenceIdeal.Read.val_main_v42 (F := Ideal) (m ((c : Thread nD τ).loc main_arg0)) (m ((c : Thread nD τ).loc main_arg1))) from V_aax m c]
  exact read2 (Cert.ReferenceIdeal.Read.val_main_v42 (F := Ideal) (m ((c : Thread nD τ).loc main_arg0)) (m ((c : Thread nD τ).loc main_arg1))) t p l

/-- Where an entry of window 3's block at point t sits in its array. -/
theorem emb3 (t : Fin cfg0.N) (p : Fin 5000) (l : Fin 1) :
    ((cfg0.win 3).blk t).view.emb (ix2 p l : S5000x1.Idx) = (ix2 (row t p) l : S50000x1.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_3.index t (0 : Fin 2) * 5000 + 1 * p.val = t.val * 5000 + p.val
    omega
  | ⟨1, _⟩ =>
    show win0_3.index t (1 : Fin 2) * 1 + 1 * l.val = l.val
    omega

/-- Any array read through window 3's block at point t, at an entry. -/
theorem read3 (A : S50000x1.Idx → EReal) (t : Fin cfg0.N) (p : Fin 5000) (l : Fin 1) :
    ((cfg0.win 3).blk t).view.read (Elt Ideal) A (ix2 p l : S5000x1.Idx) = A (ix2 (row t p) l : S50000x1.Idx) := by
  show A (((cfg0.win 3).blk t).view.emb (ix2 p l : S5000x1.Idx)) = _
  exact congrArg A (emb3 t p l)

/-- Window 3's block at point t, read at an entry. -/
theorem blk3 (c : Dev nD) (t : Fin cfg0.N) (p : Fin 5000) (l : Fin 1) :
    iblk m c 3 t (ix2 p l : S5000x1.Idx) = (shapeCast S50000x1 (Cert.ReferenceIdeal.Read.val_main_v11 (F := Ideal) (m ((c : Thread nD τ).loc main_arg1))) shapeCasts_S50000_S50000x1) (ix2 (row t p) l : S50000x1.Idx) := by
  unfold iblk
  rw [show V m c (Pipeline.arrRef spec0 3) = (shapeCast S50000x1 (Cert.ReferenceIdeal.Read.val_main_v11 (F := Ideal) (m ((c : Thread nD τ).loc main_arg1))) shapeCasts_S50000_S50000x1) from V_dinv m c]
  exact read3 (shapeCast S50000x1 (Cert.ReferenceIdeal.Read.val_main_v11 (F := Ideal) (m ((c : Thread nD τ).loc main_arg1))) shapeCasts_S50000_S50000x1) t p l

/-- Where an entry of window 4's block at point t sits in its array. -/
theorem emb4 (t : Fin cfg0.N) (p : Fin 128) (l : Fin 85) :
    ((cfg0.win 4).blk t).view.emb (ix2 p l : S128x85.Idx) = (ix2 p l : S128x85.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_4.index t (0 : Fin 2) * 128 + 1 * p.val = p.val
    omega
  | ⟨1, _⟩ =>
    show win0_4.index t (1 : Fin 2) * 85 + 1 * l.val = l.val
    omega

/-- Any array read through window 4's block at point t, at an entry. -/
theorem read4 (A : S128x85.Idx → EReal) (t : Fin cfg0.N) (p : Fin 128) (l : Fin 85) :
    ((cfg0.win 4).blk t).view.read (Elt Ideal) A (ix2 p l : S128x85.Idx) = A (ix2 p l : S128x85.Idx) := by
  show A (((cfg0.win 4).blk t).view.emb (ix2 p l : S128x85.Idx)) = _
  exact congrArg A (emb4 t p l)

/-- Window 4's block at point t, read at an entry. -/
theorem blk4 (c : Dev nD) (t : Fin cfg0.N) (p : Fin 128) (l : Fin 85) :
    iblk m c 4 t (ix2 p l : S128x85.Idx) = (m ((c : Thread nD τ).loc main_arg2)) (ix2 p l : S128x85.Idx) := by
  unfold iblk
  rw [show V m c (Pipeline.arrRef spec0 4) = (m ((c : Thread nD τ).loc main_arg2)) from V_main_arg2 m c]
  exact read4 (m ((c : Thread nD τ).loc main_arg2)) t p l

/-- Where an entry of window 5's block at point t sits in its array. -/
theorem emb5 (t : Fin cfg0.N) (p : Fin 1) (l : Fin 85) :
    ((cfg0.win 5).blk t).view.emb (ix2 p l : S1x85.Idx) = (ix2 p l : S1x85.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_5.index t (0 : Fin 2) * 1 + 1 * p.val = p.val
    omega
  | ⟨1, _⟩ =>
    show win0_5.index t (1 : Fin 2) * 85 + 1 * l.val = l.val
    omega

/-- Any array read through window 5's block at point t, at an entry. -/
theorem read5 (A : S1x85.Idx → EReal) (t : Fin cfg0.N) (p : Fin 1) (l : Fin 85) :
    ((cfg0.win 5).blk t).view.read (Elt Ideal) A (ix2 p l : S1x85.Idx) = A (ix2 p l : S1x85.Idx) := by
  show A (((cfg0.win 5).blk t).view.emb (ix2 p l : S1x85.Idx)) = _
  exact congrArg A (emb5 t p l)

/-- Window 5's block at point t, read at an entry. -/
theorem blk5 (c : Dev nD) (t : Fin cfg0.N) (p : Fin 1) (l : Fin 85) :
    iblk m c 5 t (ix2 p l : S1x85.Idx) = (shapeCast S1x85 (m ((c : Thread nD τ).loc main_arg3)) shapeCasts_S85_S1x85) (ix2 p l : S1x85.Idx) := by
  unfold iblk
  rw [show V m c (Pipeline.arrRef spec0 5) = (shapeCast S1x85 (m ((c : Thread nD τ).loc main_arg3)) shapeCasts_S85_S1x85) from V_b0 m c]
  exact read5 (shapeCast S1x85 (m ((c : Thread nD τ).loc main_arg3)) shapeCasts_S85_S1x85) t p l

/-- Where an entry of window 6's block at point t sits in its array. -/
theorem emb6 (t : Fin cfg0.N) (p : Fin 128) (l : Fin 85) :
    ((cfg0.win 6).blk t).view.emb (ix2 p l : S128x85.Idx) = (ix2 p l : S128x85.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_6.index t (0 : Fin 2) * 128 + 1 * p.val = p.val
    omega
  | ⟨1, _⟩ =>
    show win0_6.index t (1 : Fin 2) * 85 + 1 * l.val = l.val
    omega

/-- Any array read through window 6's block at point t, at an entry. -/
theorem read6 (A : S128x85.Idx → EReal) (t : Fin cfg0.N) (p : Fin 128) (l : Fin 85) :
    ((cfg0.win 6).blk t).view.read (Elt Ideal) A (ix2 p l : S128x85.Idx) = A (ix2 p l : S128x85.Idx) := by
  show A (((cfg0.win 6).blk t).view.emb (ix2 p l : S128x85.Idx)) = _
  exact congrArg A (emb6 t p l)

/-- Window 6's block at point t, read at an entry. -/
theorem blk6 (c : Dev nD) (t : Fin cfg0.N) (p : Fin 128) (l : Fin 85) :
    iblk m c 6 t (ix2 p l : S128x85.Idx) = (m ((c : Thread nD τ).loc main_arg4)) (ix2 p l : S128x85.Idx) := by
  unfold iblk
  rw [show V m c (Pipeline.arrRef spec0 6) = (m ((c : Thread nD τ).loc main_arg4)) from V_main_arg4 m c]
  exact read6 (m ((c : Thread nD τ).loc main_arg4)) t p l

/-- Where an entry of window 7's block at point t sits in its array. -/
theorem emb7 (t : Fin cfg0.N) (p : Fin 1) (l : Fin 85) :
    ((cfg0.win 7).blk t).view.emb (ix2 p l : S1x85.Idx) = (ix2 p l : S1x85.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_7.index t (0 : Fin 2) * 1 + 1 * p.val = p.val
    omega
  | ⟨1, _⟩ =>
    show win0_7.index t (1 : Fin 2) * 85 + 1 * l.val = l.val
    omega

/-- Any array read through window 7's block at point t, at an entry. -/
theorem read7 (A : S1x85.Idx → EReal) (t : Fin cfg0.N) (p : Fin 1) (l : Fin 85) :
    ((cfg0.win 7).blk t).view.read (Elt Ideal) A (ix2 p l : S1x85.Idx) = A (ix2 p l : S1x85.Idx) := by
  show A (((cfg0.win 7).blk t).view.emb (ix2 p l : S1x85.Idx)) = _
  exact congrArg A (emb7 t p l)

/-- Window 7's block at point t, read at an entry. -/
theorem blk7 (c : Dev nD) (t : Fin cfg0.N) (p : Fin 1) (l : Fin 85) :
    iblk m c 7 t (ix2 p l : S1x85.Idx) = (shapeCast S1x85 (m ((c : Thread nD τ).loc main_arg5)) shapeCasts_S85_S1x85) (ix2 p l : S1x85.Idx) := by
  unfold iblk
  rw [show V m c (Pipeline.arrRef spec0 7) = (shapeCast S1x85 (m ((c : Thread nD τ).loc main_arg5)) shapeCasts_S85_S1x85) from V_b1 m c]
  exact read7 (shapeCast S1x85 (m ((c : Thread nD τ).loc main_arg5)) shapeCasts_S85_S1x85) t p l

/-- Where an entry of window 8's block at point t sits in its array. -/
theorem emb8 (t : Fin cfg0.N) (p : Fin 128) (l : Fin 86) :
    ((cfg0.win 8).blk t).view.emb (ix2 p l : S128x86.Idx) = (ix2 p l : S128x86.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_8.index t (0 : Fin 2) * 128 + 1 * p.val = p.val
    omega
  | ⟨1, _⟩ =>
    show win0_8.index t (1 : Fin 2) * 86 + 1 * l.val = l.val
    omega

/-- Any array read through window 8's block at point t, at an entry. -/
theorem read8 (A : S128x86.Idx → EReal) (t : Fin cfg0.N) (p : Fin 128) (l : Fin 86) :
    ((cfg0.win 8).blk t).view.read (Elt Ideal) A (ix2 p l : S128x86.Idx) = A (ix2 p l : S128x86.Idx) := by
  show A (((cfg0.win 8).blk t).view.emb (ix2 p l : S128x86.Idx)) = _
  exact congrArg A (emb8 t p l)

/-- Window 8's block at point t, read at an entry. -/
theorem blk8 (c : Dev nD) (t : Fin cfg0.N) (p : Fin 128) (l : Fin 86) :
    iblk m c 8 t (ix2 p l : S128x86.Idx) = (m ((c : Thread nD τ).loc main_arg6)) (ix2 p l : S128x86.Idx) := by
  unfold iblk
  rw [show V m c (Pipeline.arrRef spec0 8) = (m ((c : Thread nD τ).loc main_arg6)) from V_main_arg6 m c]
  exact read8 (m ((c : Thread nD τ).loc main_arg6)) t p l

/-- Where an entry of window 9's block at point t sits in its array. -/
theorem emb9 (t : Fin cfg0.N) (p : Fin 1) (l : Fin 86) :
    ((cfg0.win 9).blk t).view.emb (ix2 p l : S1x86.Idx) = (ix2 p l : S1x86.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_9.index t (0 : Fin 2) * 1 + 1 * p.val = p.val
    omega
  | ⟨1, _⟩ =>
    show win0_9.index t (1 : Fin 2) * 86 + 1 * l.val = l.val
    omega

/-- Any array read through window 9's block at point t, at an entry. -/
theorem read9 (A : S1x86.Idx → EReal) (t : Fin cfg0.N) (p : Fin 1) (l : Fin 86) :
    ((cfg0.win 9).blk t).view.read (Elt Ideal) A (ix2 p l : S1x86.Idx) = A (ix2 p l : S1x86.Idx) := by
  show A (((cfg0.win 9).blk t).view.emb (ix2 p l : S1x86.Idx)) = _
  exact congrArg A (emb9 t p l)

/-- Window 9's block at point t, read at an entry. -/
theorem blk9 (c : Dev nD) (t : Fin cfg0.N) (p : Fin 1) (l : Fin 86) :
    iblk m c 9 t (ix2 p l : S1x86.Idx) = (shapeCast S1x86 (m ((c : Thread nD τ).loc main_arg7)) shapeCasts_S86_S1x86) (ix2 p l : S1x86.Idx) := by
  unfold iblk
  rw [show V m c (Pipeline.arrRef spec0 9) = (shapeCast S1x86 (m ((c : Thread nD τ).loc main_arg7)) shapeCasts_S86_S1x86) from V_b2 m c]
  exact read9 (shapeCast S1x86 (m ((c : Thread nD τ).loc main_arg7)) shapeCasts_S86_S1x86) t p l

/-- Where an entry of window 10's block at point t sits in its array. -/
theorem emb10 (t : Fin cfg0.N) (p : Fin 256) (l : Fin 40) :
    ((cfg0.win 10).blk t).view.emb (ix2 p l : S256x40.Idx) = (ix2 p l : S256x40.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_10.index t (0 : Fin 2) * 256 + 1 * p.val = p.val
    omega
  | ⟨1, _⟩ =>
    show win0_10.index t (1 : Fin 2) * 40 + 1 * l.val = l.val
    omega

/-- Any array read through window 10's block at point t, at an entry. -/
theorem read10 (A : S256x40.Idx → EReal) (t : Fin cfg0.N) (p : Fin 256) (l : Fin 40) :
    ((cfg0.win 10).blk t).view.read (Elt Ideal) A (ix2 p l : S256x40.Idx) = A (ix2 p l : S256x40.Idx) := by
  show A (((cfg0.win 10).blk t).view.emb (ix2 p l : S256x40.Idx)) = _
  exact congrArg A (emb10 t p l)

/-- Window 10's block at point t, read at an entry. -/
theorem blk10 (c : Dev nD) (t : Fin cfg0.N) (p : Fin 256) (l : Fin 40) :
    iblk m c 10 t (ix2 p l : S256x40.Idx) = (m ((c : Thread nD τ).loc main_arg8)) (ix2 p l : S256x40.Idx) := by
  unfold iblk
  rw [show V m c (Pipeline.arrRef spec0 10) = (m ((c : Thread nD τ).loc main_arg8)) from V_main_arg8 m c]
  exact read10 (m ((c : Thread nD τ).loc main_arg8)) t p l

/-- Where an entry of window 11's block at point t sits in its array. -/
theorem emb11 (t : Fin cfg0.N) (p : Fin 1) (l : Fin 40) :
    ((cfg0.win 11).blk t).view.emb (ix2 p l : S1x40.Idx) = (ix2 p l : S1x40.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_11.index t (0 : Fin 2) * 1 + 1 * p.val = p.val
    omega
  | ⟨1, _⟩ =>
    show win0_11.index t (1 : Fin 2) * 40 + 1 * l.val = l.val
    omega

/-- Any array read through window 11's block at point t, at an entry. -/
theorem read11 (A : S1x40.Idx → EReal) (t : Fin cfg0.N) (p : Fin 1) (l : Fin 40) :
    ((cfg0.win 11).blk t).view.read (Elt Ideal) A (ix2 p l : S1x40.Idx) = A (ix2 p l : S1x40.Idx) := by
  show A (((cfg0.win 11).blk t).view.emb (ix2 p l : S1x40.Idx)) = _
  exact congrArg A (emb11 t p l)

/-- Window 11's block at point t, read at an entry. -/
theorem blk11 (c : Dev nD) (t : Fin cfg0.N) (p : Fin 1) (l : Fin 40) :
    iblk m c 11 t (ix2 p l : S1x40.Idx) = (shapeCast S1x40 (m ((c : Thread nD τ).loc main_arg9)) shapeCasts_S40_S1x40) (ix2 p l : S1x40.Idx) := by
  unfold iblk
  rw [show V m c (Pipeline.arrRef spec0 11) = (shapeCast S1x40 (m ((c : Thread nD τ).loc main_arg9)) shapeCasts_S40_S1x40) from V_bf m c]
  exact read11 (shapeCast S1x40 (m ((c : Thread nD τ).loc main_arg9)) shapeCasts_S40_S1x40) t p l

/-- The result as the specification's function of the launch memory's arguments. -/
def G (c : Dev nD) : S50000x40.Idx → EReal :=
  Ref.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Where an entry of the output block at point t sits in the result array. -/
theorem emb12 (t : Fin cfg0.N) (p : Fin 5000) (q : Fin 40) :
    ((cfg0.win 12).blk t).view.emb (ix2 p q : S5000x40.Idx) = (ix2 (row t p) q : S50000x40.Idx) := by
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  funext a; apply Fin.ext
  match a with
  | ⟨0, _⟩ =>
    show win0_12.index t (0 : Fin 2) * 5000 + 1 * p.val = t.val * 5000 + p.val
    omega
  | ⟨1, _⟩ =>
    show win0_12.index t (1 : Fin 2) * 40 + 1 * q.val = q.val
    omega

/-- What point t writes back is its rows of the specification's result. -/
theorem flushed_eq (c : Dev nD) (t : Fin cfg0.N) :
    (dats m 0 c).flushed 12 t = ((cfg0.win 12).blk t).view.read (Elt Ideal) (G m c) := by
  rw [Cert.KernelIdeal.Value.flushed12]
  unfold out0_12
  rw [View.canon_unit_zero hz]
  simp only [View.ld_unit_zero (S := S5000x128) hz, View.ld_unit_zero (S := S5000x1) hz,
    View.ld_unit_zero (S := S128x85) hz, View.ld_unit_zero (S := S1x85) hz, View.ld_unit_zero (S := S128x86) hz,
    View.ld_unit_zero (S := S1x86) hz, View.ld_unit_zero (S := S256x40) hz, View.ld_unit_zero (S := S1x40) hz]
  funext j
  obtain ⟨p, q, rfl⟩ : ∃ (p : Fin 5000) (q : Fin 40), j = ix2 p q := ⟨j 0, j 1, eq_ix2 j⟩
  show k0_pay1 (F := Ideal) (k0_pay2 (iblk m c 0 t) (iblk m c 1 t) (iblk m c 2 t) (iblk m c 3 t) (iblk m c 4 t) (iblk m c 5 t) (iblk m c 6 t) (iblk m c 7 t) (iblk m c 8 t) (iblk m c 9 t)) (iblk m c 10 t) (iblk m c 11 t) (ix2 p q)
      = G m c (((cfg0.win 12).blk t).view.emb (ix2 p q : S5000x40.Idx))
  refine (pay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  rw [emb12 t p q]
  unfold G Ref.result
  rw [mixOut_apply]
  have e0 : (fun l => iblk m c 0 t (ix2 p l : S5000x128.Idx)) = fun l => (m ((c : Thread nD τ).loc main_arg0)) (ix2 (row t p) l) :=
    funext fun l => blk0 m c t p l
  have e1 : (fun l => iblk m c 1 t (ix2 p l : S5000x128.Idx)) = fun l => (Cert.ReferenceIdeal.Read.val_main_v25 (F := Ideal) (m ((c : Thread nD τ).loc main_arg0)) (m ((c : Thread nD τ).loc main_arg1))) (ix2 (row t p) l) :=
    funext fun l => blk1 m c t p l
  have e2 : (fun l => iblk m c 2 t (ix2 p l : S5000x128.Idx)) = fun l => (Cert.ReferenceIdeal.Read.val_main_v42 (F := Ideal) (m ((c : Thread nD τ).loc main_arg0)) (m ((c : Thread nD τ).loc main_arg1))) (ix2 (row t p) l) :=
    funext fun l => blk2 m c t p l
  have e3 : iblk m c 3 t (ix2 p (0 : Fin 1) : S5000x1.Idx) = Cert.ReferenceIdeal.Read.val_main_v11 (F := Ideal) (m ((c : Thread nD τ).loc main_arg1)) (ix1 (row t p)) :=
    (blk3 m c t p 0).trans (LibColumn.shapeCast_a_a1_apply _ _ (row t p) 0)
  have e4 : (fun l k => iblk m c 4 t (ix2 l k : S128x85.Idx)) = fun l k => (m ((c : Thread nD τ).loc main_arg2)) (ix2 l k) :=
    funext fun l => funext fun k => blk4 m c t l k
  have e5 : (fun k => iblk m c 5 t (ix2 (0 : Fin 1) k : S1x85.Idx)) = fun k => (m ((c : Thread nD τ).loc main_arg3)) (ix1 k) :=
    funext fun k => (blk5 m c t 0 k).trans (shapeCast_a_1a_apply _ _ 0 k)
  have e6 : (fun l k => iblk m c 6 t (ix2 l k : S128x85.Idx)) = fun l k => (m ((c : Thread nD τ).loc main_arg4)) (ix2 l k) :=
    funext fun l => funext fun k => blk6 m c t l k
  have e7 : (fun k => iblk m c 7 t (ix2 (0 : Fin 1) k : S1x85.Idx)) = fun k => (m ((c : Thread nD τ).loc main_arg5)) (ix1 k) :=
    funext fun k => (blk7 m c t 0 k).trans (shapeCast_a_1a_apply _ _ 0 k)
  have e8 : (fun l k => iblk m c 8 t (ix2 l k : S128x86.Idx)) = fun l k => (m ((c : Thread nD τ).loc main_arg6)) (ix2 l k) :=
    funext fun l => funext fun k => blk8 m c t l k
  have e9 : (fun k => iblk m c 9 t (ix2 (0 : Fin 1) k : S1x86.Idx)) = fun k => (m ((c : Thread nD τ).loc main_arg7)) (ix1 k) :=
    funext fun k => (blk9 m c t 0 k).trans (shapeCast_a_1a_apply _ _ 0 k)
  have e10 : (fun k j => iblk m c 10 t (ix2 k j : S256x40.Idx)) = fun k j => (m ((c : Thread nD τ).loc main_arg8)) (ix2 k j) :=
    funext fun k => funext fun j => blk10 m c t k j
  have e11 : (fun j => iblk m c 11 t (ix2 (0 : Fin 1) j : S1x40.Idx)) = fun j => (m ((c : Thread nD τ).loc main_arg9)) (ix1 j) :=
    funext fun j => (blk11 m c t 0 j).trans (shapeCast_a_1a_apply _ _ 0 j)
  rw [e0, e1, e2, e3, e4, e5, e6, e7, e8, e9, e10, e11]

/-- An index of the result array is in point t's block iff each coordinate is in the block's range on its axis. -/
theorem mem_blk12 (t : Fin cfg0.N) (i : S50000x40.Idx) :
    i ∈ ((cfg0.win 12).blk t).view.set ↔ ∀ a : Fin 2, win0_12.index t a * S5000x40.size a ≤ (i a).val
      ∧ (i a).val < win0_12.index t a * S5000x40.size a + S5000x40.size a := by
  show i ∈ ((View.whole main_v37).slice (win0_12.rect t)).set ↔ _
  rw [View.set_slice_whole, Rect.mem_set_unit]
  exact Iff.rfl

/-- Every entry of the result array is in some point's block: row r is handled at point r / 5000. -/
theorem cover (i : S50000x40.Idx) :
    ∃ t : Fin cfg0.N, (cfg0.win 12).flush t = true ∧ i ∈ ((cfg0.win 12).blk t).view.set := by
  have hi0 : (i 0).val < 50000 := (i 0).isLt
  have hi1 : (i 1).val < 40 := (i 1).isLt
  have hN : cfg0.N = 10 := N_0
  let t : Fin cfg0.N := ⟨(i 0).val / 5000, by rw [hN]; omega⟩
  have ht : t.val = (i 0).val / 5000 := rfl
  obtain ⟨f0a, f0b, f1a, f1b, f2a, f2b, f3a, f3b, f4a, f4b, f5a, f5b, f6a, f6b, f7a, f7b, f8a, f8b, f9a, f9b, f10a, f10b, f11a, f11b, f12a, f12b⟩ := idx_facts t
  refine ⟨t, flush0_12 t, ?_⟩
  rw [mem_blk12]
  intro a
  match a with
  | ⟨0, _⟩ =>
    show win0_12.index t (0 : Fin 2) * 5000 ≤ (i 0).val ∧ (i 0).val < win0_12.index t (0 : Fin 2) * 5000 + 5000
    omega
  | ⟨1, _⟩ =>
    show win0_12.index t (1 : Fin 2) * 40 ≤ (i 1).val ∧ (i 1).val < win0_12.index t (1 : Fin 2) * 40 + 40
    omega

/-- The result array after the run is the specification's function of the arguments. -/
theorem final (c : Dev nD) : (dats m 0 c).arrAt 12 cfg0.N = G m c :=
  (dats m 0 c).arrAt_eq_of_cover 12 (G m c) (fun t _ => flushed_eq m c t) cover

/-- The kernel's run: it terminates without a fault, the result array at the specification's function of the
    arguments, the arguments unchanged. -/
theorem run : θ_run defs (onTc (τ := τ) (main (F := Ideal))) ⟨m, fun _ => 0, ρ⟩ fun r => ∀ c : Dev nD,
      r.2.mem ((c : Thread nD τ).loc main_v37) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.MixHop.Kernel

end
-- ==== Proof.lean ====
/-
  Equivalence, over the extended reals, of a fused MixHop dense stage with its plain reference.

  Both programs first compute on the host, by the same operations on the same inputs, the out-degrees' clamped
  inverses d and the neighbour sums A·x and A·A·x (gather the neighbour rows, add them into their target rows).
  Then the result is, row by row,
      out = max([x·W0 + b0, (A·x · d)·W1 + b1, (A·A·x · d²)·W2 + b2], 0)·Wf + bf,
  which the reference computes with whole-array operations and the kernel block by block, 5000 rows at each of ten
  grid points. At the ideal values a matrix product into a zero accumulator and the host's dot_general are the same
  sum over the contraction coordinate, so the two programs compute the same expression with the same grouping and
  no algebraic law (hence no finiteness) is needed: the kernel's result array is the specification's function of the
  arguments (the blocks cover the rows), the reference's last stage is the same function, and the arguments agree.
  The ideal pass rewrote nothing, so the kernel's idealization is its own text read at the ideal values.
-/
import proofs.«117592_j24481313587860_1_alg».proof.Defs
import proofs.«117592_j24481313587860_1_alg».proof.Proof.Gen.Kernel
import proofs.«117592_j24481313587860_1_alg».proof.Proof.Gen.Kernel.Frame
import proofs.«117592_j24481313587860_1_alg».proof.Proof.Gen.KernelIdeal
import proofs.«117592_j24481313587860_1_alg».proof.Proof.Gen.KernelIdeal.Frame
import proofs.«117592_j24481313587860_1_alg».proof.Proof.Gen.KernelIdeal.Value
import proofs.«117592_j24481313587860_1_alg».proof.Proof.Gen.ReferenceIdeal
import proofs.«117592_j24481313587860_1_alg».proof.Proof.Gen.ReferenceIdeal.Run
import proofs.«117592_j24481313587860_1_alg».proof.Proof.Gen.ReferenceIdeal.Read
import proofs.«117592_j24481313587860_1_alg».proof.Proof.Gen.Pre_finite_inputs
import proofs.«117592_j24481313587860_1_alg».proof.Proof.RefValue
import proofs.«117592_j24481313587860_1_alg».proof.Proof.KernelBlocks
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both programs end with the specification's function of the (agreeing) arguments in their result arrays. -/
theorem algebraic : Cert.algebraic_KernelIdeal_ReferenceIdeal := by
  intro m ρ m' ρ' _ hagree
  refine ⟨fun c => Cert.MixHop.Kernel.G m c, Cert.MixHop.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v56_eq, Cert.MixHop.Ref.stage_eq, a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
